-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x1024x3 : Shape := ⟨3, ![1, 1024, 3]⟩
abbrev S1x3x8192 : Shape := ⟨3, ![1, 3, 8192]⟩
abbrev S1x1x1024 : Shape := ⟨3, ![1, 1, 1024]⟩
abbrev S1x1x8192 : Shape := ⟨3, ![1, 1, 8192]⟩
abbrev S8192 : Shape := ⟨1, ![8192]⟩
abbrev S1024x3 : Shape := ⟨2, ![1024, 3]⟩
abbrev S1024 : Shape := ⟨1, ![1024]⟩
abbrev S1024x1 : Shape := ⟨2, ![1024, 1]⟩
abbrev S1x3x2048 : Shape := ⟨3, ![1, 3, 2048]⟩
abbrev S3x2048 : Shape := ⟨2, ![3, 2048]⟩
abbrev S2048 : Shape := ⟨1, ![2048]⟩
abbrev S1x2048 : Shape := ⟨2, ![1, 2048]⟩
abbrev S1024x2048 : Shape := ⟨2, ![1024, 2048]⟩
abbrev S1x1x2048 : Shape := ⟨3, ![1, 1, 2048]⟩
abbrev S4x8192 : Shape := ⟨2, ![4, 8192]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x1x8192, .f32⟩
  | .hbm, ⟨4, _⟩ => ⟨S4x1x8192, .f32⟩
  | .hbm, ⟨5, _⟩ => ⟨S4x8192, .f32⟩
  | .hbm, ⟨6, _⟩ => ⟨S4x8192, .f32⟩
  | .local _ .vmem, ⟨0, _⟩ => ⟨S1x1024x3, .f32⟩
  | .local _ .vmem, ⟨1, _⟩ => ⟨S1x1024x3, .f32⟩
  | .local _ .vmem, ⟨2, _⟩ => ⟨S1x3x8192, .f32⟩
  | .local _ .vmem, ⟨3, _⟩ => ⟨S1x3x8192, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x3_S4x3x8192_0_2_1 : S4x8192x3.Transposes [0, 2, 1] S4x3x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  inb_S1x3x8192_S1x3x2048_0_0_0 : ∀ a, (![0, 0, 0] : Fin 3 → Nat) a + S1x3x2048.size a ≤ S1x3x8192.size a
  h_S1x3x2048 : 0 < S1x3x2048.numel
  shapeCasts_S1x3x2048_S3x2048 : S1x3x2048.ShapeCasts S3x2048
  reduces_S3x2048_S2048 : S3x2048.Reduces [0] S2048
  shapeCasts_S2048_S1x2048 : S2048.ShapeCasts S1x2048
  slices_S1024x3_o0_0_S1024x1 : S1024x3.Slices ![0, 0] S1024x1
  slices_S3x2048_o0_0_S1x2048 : S3x2048.Slices ![0, 0] S1x2048
  broadcasts_S1024x1_S1024x2048 : S1024x1.Broadcasts S1024x2048
  broadcasts_S1x2048_S1024x2048 : S1x2048.Broadcasts S1024x2048
  slices_S1024x3_o0_1_S1024x1 : S1024x3.Slices ![0, 1] S1024x1
  slices_S3x2048_o1_0_S1x2048 : S3x2048.Slices ![1, 0] S1x2048
  slices_S1024x3_o0_2_S1024x1 : S1024x3.Slices ![0, 2] S1024x1
  slices_S3x2048_o2_0_S1x2048 : S3x2048.Slices ![2, 0] S1x2048
  reduces_S1024x2048_S1024 : S1024x2048.Reduces [1] S1024
  reduces_S1024x2048_S2048 : S1024x2048.Reduces [0] S2048
  inb_S1x1x8192_S1x1x2048_0_0_0 : ∀ a, (![0, 0, 0] : Fin 3 → Nat) a + S1x1x2048.size a ≤ S1x1x8192.size a
  h_S1x1x2048 : 0 < S1x1x2048.numel
  shapeCasts_S1x1x2048_S2048 : S1x1x2048.ShapeCasts S2048
  shapeCasts_S2048_S1x1x2048 : S2048.ShapeCasts S1x1x2048
  inb_S1x3x8192_S1x3x2048_0_0_2048 : ∀ a, (![0, 0, 2048] : Fin 3 → Nat) a + S1x3x2048.size a ≤ S1x3x8192.size a
  inb_S1x1x8192_S1x1x2048_0_0_2048 : ∀ a, (![0, 0, 2048] : Fin 3 → Nat) a + S1x1x2048.size a ≤ S1x1x8192.size a
  inb_S1x3x8192_S1x3x2048_0_0_4096 : ∀ a, (![0, 0, 4096] : Fin 3 → Nat) a + S1x3x2048.size a ≤ S1x3x8192.size a
  inb_S1x1x8192_S1x1x2048_0_0_4096 : ∀ a, (![0, 0, 4096] : Fin 3 → Nat) a + S1x1x2048.size a ≤ S1x1x8192.size a
  inb_S1x3x8192_S1x3x2048_0_0_6144 : ∀ a, (![0, 0, 6144] : Fin 3 → Nat) a + S1x3x2048.size a ≤ S1x3x8192.size a
  inb_S1x1x8192_S1x1x2048_0_0_6144 : ∀ a, (![0, 0, 6144] : Fin 3 → Nat) a + S1x1x2048.size a ≤ S1x1x8192.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  shapeCasts_S4x1x8192_S4x8192 : S4x1x8192.ShapeCasts S4x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.ChamferSpec.lean ====
/-
  The pairwise squared distance between two clouds of points in three coordinates, written |p|² + |q|² − 2·(p·q), and its
  two nearest-neighbour minima: for every point of the first cloud the least squared distance to the second cloud, and for
  every point of the second the least squared distance to the first. This is the one function of the two argument arrays
  that both programs compute over the extended reals; the doubling factor is kept as the word both programs write.
-/
import Idealize.ShloMosaic.PureOps.Ideal
import Idealize.ShloMosaic.Lib.ValueIdx

noncomputable section

namespace Cert.Chamfer

open Idealize.ShloMosaic Idealize.ShloMosaic.ValueIdx

/-- A cloud: 4 batches of 8192 points of 3 coordinates. -/
abbrev Cloud : Shape := ⟨3, ![4, 8192, 3]⟩
/-- A result: one number per batch and point. -/
abbrev Res : Shape := ⟨2, ![4, 8192]⟩

/-- The factor 2.0, as the word both programs carry. -/
abbrev two : EReal := Ideal.ofBits .f32 0x40000000#32

/-- |pₙ|² + |qₘ|² − 2·(pₙ·qₘ) in batch `b`. -/
def dist (X Y : Cloud.Idx → EReal) (b : Fin 4) (n m : Fin 8192) : EReal :=
  ((∑ k : Fin 3, X (ix3 b n k) * X (ix3 b n k)) + (∑ k : Fin 3, Y (ix3 b m k) * Y (ix3 b m k)))
    - two * ∑ k : Fin 3, X (ix3 b n k) * Y (ix3 b m k)

/-- For each point of the first cloud, the least squared distance to a point of the second. -/
def nearest1 (X Y : Cloud.Idx → EReal) (b : Fin 4) (n : Fin 8192) : EReal := ⨅ m : Fin 8192, dist X Y b n m

/-- For each point of the second cloud, the least squared distance to a point of the first. -/
def nearest2 (X Y : Cloud.Idx → EReal) (b : Fin 4) (m : Fin 8192) : EReal := ⨅ n : Fin 8192, dist X Y b n m

/-- The two results as arrays. -/
def result1 (X Y : Cloud.Idx → EReal) : Res.Idx → EReal := fun j => nearest1 X Y (j 0) (j 1)
def result2 (X Y : Cloud.Idx → EReal) : Res.Idx → EReal := fun j => nearest2 X Y (j 0) (j 1)

theorem result1_ix (X Y : Cloud.Idx → EReal) (b : Fin 4) (n : Fin 8192) : result1 X Y (ix2 b n) = nearest1 X Y b n := rfl
theorem result2_ix (X Y : Cloud.Idx → EReal) (b : Fin 4) (m : Fin 8192) : result2 X Y (ix2 b m) = nearest2 X Y b m := rfl

end Cert.Chamfer

end
-- ==== Proof.LibMinFold.lean ====
/-
  Minima over finite families in a complete linear order, carried by their lower bounds: a fold of `min` from a
  starting value over a whole finite index type, and the same fold read as an infimum.
-/
import Mathlib.Data.Finset.Fold
import Mathlib.Order.CompleteLattice.Basic
import Mathlib.Data.Fintype.Basic

namespace MinFold

variable {α : Type*} [CompleteLinearOrder α] {ι : Type*} [Fintype ι]

/-- `a` is below the fold of `min` from `init` over every index exactly when it is below `init` and below every term. -/
theorem le_fold_min_univ (a init : α) (f : ι → α) :
    a ≤ (Finset.univ : Finset ι).fold min init f ↔ a ≤ init ∧ ∀ k, a ≤ f k := by
  rw [Finset.le_fold_min]
  exact and_congr Iff.rfl ⟨fun h k => h k (Finset.mem_univ k), fun h k _ => h k⟩

/-- From the top element the fold of `min` over every index is the infimum of the family. -/
theorem fold_min_top_univ (f : ι → α) : (Finset.univ : Finset ι).fold min ⊤ f = ⨅ k, f k :=
  eq_of_forall_le_iff fun a => by
    rw [le_fold_min_univ, le_iInf_iff]
    exact ⟨fun h => h.2, fun h => ⟨le_top, h⟩⟩

/-- From any starting value: the starting value met with the infimum. -/
theorem fold_min_univ (init : α) (f : ι → α) : (Finset.univ : Finset ι).fold min init f = min init (⨅ k, f k) :=
  eq_of_forall_le_iff fun a => by
    rw [le_fold_min_univ, le_min_iff, le_iInf_iff]

/-- Two elements with the same lower bounds are equal: the form in which two minima taken in different groupings meet. -/
theorem eq_iInf_of_forall_le_iff {x : α} (f : ι → α) (h : ∀ a, a ≤ x ↔ ∀ k, a ≤ f k) : x = ⨅ k, f k :=
  eq_of_forall_le_iff fun a => by rw [h a, le_iInf_iff]

end MinFold
-- ==== Proof.RefIsSpec.lean ====
/-
  The reference computes the nearest-neighbour minima of the squared-distance matrix: each entry of its distance matrix is
  |p|² + |q|² − 2·(p·q) (the two sums of squares start from zero, the inner product is a sum over the three coordinates),
  and each of its two results is a minimum, from +∞, along one axis of that matrix — an infimum over the 8192 points of
  the other cloud.
-/
import proofs.«107273_j78314433675722_2_alg».proof.Proof.Gen.ReferenceIdeal.Read
import proofs.«107273_j78314433675722_2_alg».proof.Proof.ChamferSpec
import proofs.«107273_j78314433675722_2_alg».proof.Proof.LibMinFold
import Idealize.ShloMosaic.PureOps.Ideal.Laws

noncomputable section

namespace Cert.Chamfer

open Idealize.ShloMosaic

/-- The word 0x7F800000 is +∞, the top of the extended reals. -/
theorem ofBits_pinf : Ideal.ofBits .f32 0x7F800000#32 = (⊤ : EReal) := by simp [Ideal.ofBits, Ideal.ieee]

end Cert.Chamfer

namespace Cert.ReferenceIdeal.RefValue

open Cert.ReferenceIdeal Cert.ReferenceIdeal.Gen Cert.ReferenceIdeal.Read Idealize.ShloMosaic Idealize.ShloMosaic.ValueIdx Cert.Chamfer

/-- One entry of the reference's distance matrix. -/
theorem dist_entry (X Y : (⟨S4x8192x3, .f32⟩ : BufTy).Contents (Elt Ideal)) (b : Fin 4) (n m : Fin 8192) :
    val_main_v12 (F := Ideal) X Y (ix3 b n m) = dist X Y b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply]
  simp only [val_main_v0_apply, val_main_v2_apply, val_main_cst_apply, val_main_cst_0_apply, val_main_cst_1_apply, e1, e3, el, er,
    Ideal.mulf_def, Ideal.addf_def, Ideal.subf_def, Ideal.ofBits_def, Ideal.ofBits_zero_f32, zero_add]
  rfl

set_option maxRecDepth 16384 in
/-- The first result: along the second cloud. -/
theorem v13_eq (X Y : (⟨S4x8192x3, .f32⟩ : BufTy).Contents (Elt Ideal)) : val_main_v13 (F := Ideal) X Y = result1 X Y := by
  funext j
  obtain ⟨b, n, rfl⟩ : ∃ (b : Fin 4) (n : Fin 8192), j = ix2 b n := ⟨j 0, j 1, eq_ix2 j⟩
  rw [result1_ix]
  unfold val_main_v13 nearest1
  have hR : S4x8192x8192.Reduces [2] S4x8192 := by decide
  rw [Host.reduce_eq_fold_single FloatOps.minimumf _ _ reducesTo_S4x8192x8192_S4x8192_d2 hR h_S_ (ix2 b n)]
  show (Finset.univ : Finset (Fin 8192)).fold min (Ideal.ofBits .f32 0x7F800000#32)
      (fun k => val_main_v12 (F := Ideal) X Y (hR.lift (ix2 b n) k)) = _
  rw [ofBits_pinf]
  refine (MinFold.fold_min_top_univ (ι := Fin 8192) _).trans ?_
  refine iInf_congr fun k => ?_
  rw [show hR.lift (ix2 b n) k = ix3 b n k from
    funext fun a => Fin.ext (by match a with | ⟨0, _⟩ => rfl | ⟨1, _⟩ => rfl | ⟨2, _⟩ => rfl)]
  exact dist_entry X Y b n k

set_option maxRecDepth 16384 in
/-- The second result: along the first cloud. -/
theorem v14_eq (X Y : (⟨S4x8192x3, .f32⟩ : BufTy).Contents (Elt Ideal)) : val_main_v14 (F := Ideal) X Y = result2 X Y := by
  funext j
  obtain ⟨b, m, rfl⟩ : ∃ (b : Fin 4) (m : Fin 8192), j = ix2 b m := ⟨j 0, j 1, eq_ix2 j⟩
  rw [result2_ix]
  unfold val_main_v14 nearest2
  have hR : S4x8192x8192.Reduces [1] S4x8192 := by decide
  rw [Host.reduce_eq_fold_single FloatOps.minimumf _ _ reducesTo_S4x8192x8192_S4x8192_d1 hR h_S_ (ix2 b m)]
  show (Finset.univ : Finset (Fin 8192)).fold min (Ideal.ofBits .f32 0x7F800000#32)
      (fun k => val_main_v12 (F := Ideal) X Y (hR.lift (ix2 b m) k)) = _
  rw [ofBits_pinf]
  refine (MinFold.fold_min_top_univ (ι := Fin 8192) _).trans ?_
  refine iInf_congr fun k => ?_
  rw [show hR.lift (ix2 b m) k = ix3 b k m from
    funext fun a => Fin.ext (by match a with | ⟨0, _⟩ => rfl | ⟨1, _⟩ => rfl | ⟨2, _⟩ => rfl)]
  exact dist_entry X Y b k m

end Cert.ReferenceIdeal.RefValue

end
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.TileDist.lean ====
/-
  One tile of the distance matrix. From a tile of 1024 points of the first cloud (point-major) and a slab of points of the
  second cloud (coordinate-major), the body computes, for row r and column q,
      (Σₖ pᵣₖ² + Σₖ qₖ² ) − 2 · ((pᵣ₀·q₀ + pᵣ₁·q₁) + pᵣ₂·q₂),
  the sums of squares as lane sums from zero, the inner product as three broadcast products added left to right. The body
  spells this four times (once per slab of 2048 columns, with the tile's casts and row sums shared or recomputed); each
  spelling read at (r, q) is the one function `pairDist`. A row or column minimum of a tile, from +∞, is an infimum.
-/
import proofs.«107273_j78314433675722_2_alg».proof.Proof.Gen.KernelIdeal.Skeleton
import proofs.«107273_j78314433675722_2_alg».proof.Proof.ChamferSpec
import proofs.«107273_j78314433675722_2_alg».proof.Proof.LibKeepdims
import proofs.«107273_j78314433675722_2_alg».proof.Proof.LibMinFold
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Idealize.ShloMosaic.Keepdims Cert.Chamfer

/-- The word 0x7F800000 is +∞, the top of the extended reals. -/
theorem ofBits_pinf : Ideal.ofBits .f32 0x7F800000#32 = (⊤ : EReal) := by simp [Ideal.ofBits, Ideal.ieee]

/-- The squared distance between row `r` of a tile of the first cloud and column `q` of a slab of `N` points of the second,
    in the body's spelling. -/
def pairDist {N : ℕ} (P : (⟨3, ![1, 1024, 3]⟩ : Shape).Idx → EReal) (Q : (⟨3, ![1, 3, N]⟩ : Shape).Idx → EReal)
    (r : Fin 1024) (q : Fin N) : EReal :=
  ((∑ k : Fin 3, P (ix3 0 r k) * P (ix3 0 r k)) + (∑ k : Fin 3, Q (ix3 0 k q) * Q (ix3 0 k q)))
    - two * ((P (ix3 0 r 0) * Q (ix3 0 0 q) + P (ix3 0 r 1) * Q (ix3 0 1 q)) + P (ix3 0 r 2) * Q (ix3 0 2 q))

/-! ## The layout steps of the body, read at an index -/

theorem tile_cast (v3 : Vec Ideal S1x1024x3 .f32) (h : S1x1024x3.ShapeCasts S1024x3) (r : Fin 1024) (k : Fin 3) :
    shapeCast S1024x3 v3 h (ix2 r k) = v3 (ix3 0 r k) := shapeCast_1ab_ab_apply v3 h r k

theorem slab_cast (v9 : Vec Ideal S1x3x2048 .f32) (h : S1x3x2048.ShapeCasts S3x2048) (k : Fin 3) (q : Fin 2048) :
    shapeCast S3x2048 v9 h (ix2 k q) = v9 (ix3 0 k q) := shapeCast_1ab_ab_apply v9 h k q

/-- A lane sum from zero along a tile's three coordinates. -/
theorem row_sum (v : FVec Ideal S1024x3 .f32) (h : S1024x3.Reduces [1] S1024) (hφ : FKind.Formats .f32)
    (hacc : (0x00000000#32 : BitVec 32) = 0x00000000#32) (r : Fin 1024) :
    multiReduction .add [1] S1024 v 0x00000000#32 h hφ hacc (ix1 r) = ∑ k : Fin 3, v (ix2 r k) := by
  refine (Ideal.multiReduction_add_single v 0x00000000#32 h hφ hacc (ix1 r)).trans ?_
  refine Finset.sum_congr rfl fun k _ => congrArg v ?_
  exact funext fun a => Fin.ext (by match a with | ⟨0, _⟩ => rfl | ⟨1, _⟩ => rfl)

/-- A sublane sum from zero along a slab's three coordinates. -/
theorem col_sum (v : FVec Ideal S3x2048 .f32) (h : S3x2048.Reduces [0] S2048) (hφ : FKind.Formats .f32)
    (hacc : (0x00000000#32 : BitVec 32) = 0x00000000#32) (q : Fin 2048) :
    multiReduction .add [0] S2048 v 0x00000000#32 h hφ hacc (ix1 q) = ∑ k : Fin 3, v (ix2 k q) := by
  refine (Ideal.multiReduction_add_single v 0x00000000#32 h hφ hacc (ix1 q)).trans ?_
  refine Finset.sum_congr rfl fun k _ => congrArg v ?_
  exact funext fun a => Fin.ext (by match a with | ⟨0, _⟩ => rfl | ⟨1, _⟩ => rfl)

theorem sq_col (v : FVec Ideal S1024 .f32) (h : S1024.ShapeCasts S1024x1) (r : Fin 1024) (u : Fin 1) :
    shapeCast S1024x1 v h (ix2 r u) = v (ix1 r) := shapeCast_a_a1_apply v h r u

theorem sq_row (v : FVec Ideal S2048 .f32) (h : S2048.ShapeCasts S1x2048) (u : Fin 1) (q : Fin 2048) :
    shapeCast S1x2048 v h (ix2 u q) = v (ix1 q) := shapeCast_a_1a_apply v h u q

theorem tile_col0 (v4 : FVec Ideal S1024x3 .f32) (h : S1024x3.Slices ![0, 0] S1024x1) (r : Fin 1024) (u : Fin 1) :
    extractStridedSlice S1024x1 ![0, 0] v4 h (ix2 r u) = v4 (ix2 r 0) :=
  slice2_axis1_apply 0 v4 h r u 0 (by have := u.isLt; show (0 : ℕ) = 0 + u.val; omega)
theorem tile_col1 (v4 : FVec Ideal S1024x3 .f32) (h : S1024x3.Slices ![0, 1] S1024x1) (r : Fin 1024) (u : Fin 1) :
    extractStridedSlice S1024x1 ![0, 1] v4 h (ix2 r u) = v4 (ix2 r 1) :=
  slice2_axis1_apply 1 v4 h r u 1 (by have := u.isLt; show (1 : ℕ) = 1 + u.val; omega)
theorem tile_col2 (v4 : FVec Ideal S1024x3 .f32) (h : S1024x3.Slices ![0, 2] S1024x1) (r : Fin 1024) (u : Fin 1) :
    extractStridedSlice S1024x1 ![0, 2] v4 h (ix2 r u) = v4 (ix2 r 2) :=
  slice2_axis1_apply 2 v4 h r u 2 (by have := u.isLt; show (2 : ℕ) = 2 + u.val; omega)

theorem slab_row0 (v10 : FVec Ideal S3x2048 .f32) (h : S3x2048.Slices ![0, 0] S1x2048) (u : Fin 1) (q : Fin 2048) :
    extractStridedSlice S1x2048 ![0, 0] v10 h (ix2 u q) = v10 (ix2 0 q) :=
  slice2_axis0_apply 0 v10 h u q 0 (by have := u.isLt; show (0 : ℕ) = 0 + u.val; omega)
theorem slab_row1 (v10 : FVec Ideal S3x2048 .f32) (h : S3x2048.Slices ![1, 0] S1x2048) (u : Fin 1) (q : Fin 2048) :
    extractStridedSlice S1x2048 ![1, 0] v10 h (ix2 u q) = v10 (ix2 1 q) :=
  slice2_axis0_apply 1 v10 h u q 1 (by have := u.isLt; show (1 : ℕ) = 1 + u.val; omega)
theorem slab_row2 (v10 : FVec Ideal S3x2048 .f32) (h : S3x2048.Slices ![2, 0] S1x2048) (u : Fin 1) (q : Fin 2048) :
    extractStridedSlice S1x2048 ![2, 0] v10 h (ix2 u q) = v10 (ix2 2 q) :=
  slice2_axis0_apply 2 v10 h u q 2 (by have := u.isLt; show (2 : ℕ) = 2 + u.val; omega)

theorem along_rows (v : FVec Ideal S1024x1 .f32) (h : S1024x1.Broadcasts S1024x2048) (r : Fin 1024) (q : Fin 2048) :
    broadcastTo S1024x2048 v h (ix2 r q) = v (ix2 r (0 : Fin 1)) := broadcastTo_a1_ab_apply v h r q
theorem along_cols (v : FVec Ideal S1x2048 .f32) (h : S1x2048.Broadcasts S1024x2048) (r : Fin 1024) (q : Fin 2048) :
    broadcastTo S1024x2048 v h (ix2 r q) = v (ix2 (0 : Fin 1) q) := broadcastTo_1b_ab_apply v h r q

/-! ## The four spellings -/

/-- The body's arithmetic on a tile already cast to [1024, 3] (`T`), its row sums of squares kept as a column (`SQ`),
    and a slab already cast to [3, 2048] (`U`). -/
def core (T : FVec Ideal S1024x3 .f32) (SQ : FVec Ideal S1024x1 .f32) (U : FVec Ideal S3x2048 .f32) (r : Fin 1024) (q : Fin 2048) :
    EReal :=
  (SQ (ix2 r (0 : Fin 1)) + ∑ k : Fin 3, U (ix2 k q) * U (ix2 k q))
    - two * ((T (ix2 r 0) * U (ix2 0 q) + T (ix2 r 1) * U (ix2 1 q)) + T (ix2 r 2) * U (ix2 2 q))

/-- The tile's row sums of squares (statement 7 of the body). -/
theorem sq_of_tile (v3 : Vec Ideal S1x1024x3 .f32) (r : Fin 1024) (u : Fin 1) :
    k0_pay6 v3 (ix2 r u) = ∑ k : Fin 3, k0_pay5 v3 (ix2 r k) * k0_pay5 v3 (ix2 r k) := by
  unfold k0_pay6
  generalize k0_pay5 v3 = T
  simp only [sq_col]
  exact row_sum (mulf T T) _ _ _ r

/-- The first slab's tile (statement 36 of the body), from the loaded tile and slab. -/
theorem first_slab (v3 : Vec Ideal S1x1024x3 .f32) (v9 : Vec Ideal S1x3x2048 .f32) (r : Fin 1024) (q : Fin 2048) :
    k0_pay7 v3 v9 (ix2 r q) = core (k0_pay5 v3) (k0_pay6 v3) (shapeCast S3x2048 v9 shapeCasts_S1x3x2048_S3x2048) r q := by
  unfold k0_pay7 core
  generalize k0_pay5 v3 = T
  generalize k0_pay6 v3 = SQ
  generalize shapeCast S3x2048 v9 shapeCasts_S1x3x2048_S3x2048 = U
  simp only [subf_apply, addf_apply, mulf_apply, broadcast_apply, along_rows, along_cols, sq_row, col_sum,
    tile_col0, tile_col1, tile_col2, slab_row0, slab_row1, slab_row2]
  rw [col_sum]
  rfl

/-- The second slab's tile (statement 73). -/
theorem second_slab (T : FVec Ideal S1024x3 .f32) (SQ : FVec Ideal S1024x1 .f32) (v46 : Vec Ideal S1x3x2048 .f32)
    (r : Fin 1024) (q : Fin 2048) :
    k0_pay11 T SQ v46 (ix2 r q) = core T SQ (shapeCast S3x2048 v46 shapeCasts_S1x3x2048_S3x2048) r q := by
  unfold k0_pay11 core
  generalize shapeCast S3x2048 v46 shapeCasts_S1x3x2048_S3x2048 = U
  simp only [subf_apply, addf_apply, mulf_apply, broadcast_apply, along_rows, along_cols, sq_row, col_sum,
    tile_col0, tile_col1, tile_col2, slab_row0, slab_row1, slab_row2]
  rw [col_sum]
  rfl

/-- The third slab's tile (statement 110). -/
theorem third_slab (T : FVec Ideal S1024x3 .f32) (SQ : FVec Ideal S1024x1 .f32) (v83 : Vec Ideal S1x3x2048 .f32)
    (r : Fin 1024) (q : Fin 2048) :
    k0_pay14 T SQ v83 (ix2 r q) = core T SQ (shapeCast S3x2048 v83 shapeCasts_S1x3x2048_S3x2048) r q := by
  unfold k0_pay14 core
  generalize shapeCast S3x2048 v83 shapeCasts_S1x3x2048_S3x2048 = U
  simp only [subf_apply, addf_apply, mulf_apply, broadcast_apply, along_rows, along_cols, sq_row, col_sum,
    tile_col0, tile_col1, tile_col2, slab_row0, slab_row1, slab_row2]
  rw [col_sum]
  rfl

/-- The fourth slab's tile (statement 147), its slab cast and column sums computed in the part before. -/
theorem fourth_slab (T : FVec Ideal S1024x3 .f32) (SQ : FVec Ideal S1024x1 .f32) (v120 : Vec Ideal S1x3x2048 .f32)
    (r : Fin 1024) (q : Fin 2048) :
    k0_pay1 T SQ (k0_pay17 v120) (k0_pay18 v120) (ix2 r q) = core T SQ (shapeCast S3x2048 v120 shapeCasts_S1x3x2048_S3x2048) r q := by
  unfold k0_pay1 k0_pay18 k0_pay17 core
  generalize shapeCast S3x2048 v120 shapeCasts_S1x3x2048_S3x2048 = U
  simp only [subf_apply, addf_apply, mulf_apply, broadcast_apply, along_rows, along_cols, sq_row, col_sum,
    tile_col0, tile_col1, tile_col2, slab_row0, slab_row1, slab_row2]
  rw [col_sum]
  rfl

/-- The core on the casts of a loaded tile and a loaded slab is the squared distance of row `r` and column `q`. -/
theorem core_eq (v3 : Vec Ideal S1x1024x3 .f32) (v : Vec Ideal S1x3x2048 .f32) (h : S1x3x2048.ShapeCasts S3x2048)
    (r : Fin 1024) (q : Fin 2048) :
    core (k0_pay5 v3) (k0_pay6 v3) (shapeCast S3x2048 v h) r q = pairDist v3 v r q := by
  have hT : ∀ k : Fin 3, k0_pay5 v3 (ix2 r k) = v3 (ix3 0 r k) := fun k => tile_cast v3 _ r k
  have hU : ∀ k : Fin 3, shapeCast S3x2048 v h (ix2 k q) = v (ix3 0 k q) := fun k => slab_cast v h k q
  unfold core pairDist
  rw [sq_of_tile, hT 0, hT 1, hT 2, hU 0, hU 1, hU 2]
  refine congrArg₂ (· - ·) (congrArg₂ (· + ·) ?_ ?_) rfl
  · exact Finset.sum_congr rfl fun k _ => by rw [hT k]
  · exact Finset.sum_congr rfl fun k _ => by rw [hU k]

/-! ## Minima of a tile, from +∞ -/

/-- A lane minimum from +∞: along a row of the tile. -/
theorem row_min (v : FVec Ideal S1024x2048 .f32) (h : S1024x2048.Reduces [1] S1024) (hφ : FKind.Formats .f32)
    (hacc : (0x7F800000#32 : BitVec 32) = 0x7F800000#32) (r : Fin 1024) :
    multiReduction .minimumf [1] S1024 v 0x7F800000#32 h hφ hacc (ix1 r) = ⨅ q : Fin 2048, v (ix2 r q) := by
  refine (multiReduction_minimumf_eq_fold v 0x7F800000#32 h hφ hacc (ix1 r)).trans ?_
  refine (h.fold_filter_drop_single _ _ v (ix1 r)).trans ?_
  show (Finset.univ : Finset (Fin 2048)).fold min (Ideal.ofBits .f32 0x7F800000#32) (fun k => v (h.lift (ix1 r) k)) = _
  rw [ofBits_pinf]
  refine (MinFold.fold_min_top_univ (ι := Fin 2048) _).trans ?_
  refine iInf_congr fun k => congrArg v ?_
  exact funext fun a => Fin.ext (by match a with | ⟨0, _⟩ => rfl | ⟨1, _⟩ => rfl)

/-- A sublane minimum from +∞: along a column of the tile. -/
theorem col_min (v : FVec Ideal S1024x2048 .f32) (h : S1024x2048.Reduces [0] S2048) (hφ : FKind.Formats .f32)
    (hacc : (0x7F800000#32 : BitVec 32) = 0x7F800000#32) (q : Fin 2048) :
    multiReduction .minimumf [0] S2048 v 0x7F800000#32 h hφ hacc (ix1 q) = ⨅ r : Fin 1024, v (ix2 r q) := by
  refine (multiReduction_minimumf_eq_fold v 0x7F800000#32 h hφ hacc (ix1 q)).trans ?_
  refine (h.fold_filter_drop_single _ _ v (ix1 q)).trans ?_
  show (Finset.univ : Finset (Fin 1024)).fold min (Ideal.ofBits .f32 0x7F800000#32) (fun k => v (h.lift (ix1 q) k)) = _
  rw [ofBits_pinf]
  refine (MinFold.fold_min_top_univ (ι := Fin 1024) _).trans ?_
  refine iInf_congr fun k => congrArg v ?_
  exact funext fun a => Fin.ext (by match a with | ⟨0, _⟩ => rfl | ⟨1, _⟩ => rfl)

end Cert.KernelIdeal.Tile

end
-- ==== Proof.TileStores.lean ====
/-
  What the body stores, read at an index. For each slab of 2048 columns the body takes the column minimum of the tile
  of squared distances and stores its minimum with what the accumulator held there; over the four slabs it carries the
  running row minimum, starting from +∞, and stores it at the end.
-/
import proofs.«107273_j78314433675722_2_alg».proof.Proof.TileDist

noncomputable section

namespace Cert.KernelIdeal.Tile

open Cert.KernelIdeal Cert.KernelIdeal.Gen Idealize.ShloMosaic Idealize.ShloMosaic.ValueIdx Idealize.ShloMosaic.Keepdims Cert.Chamfer

/-- The accumulator's slab seen as a vector, and back. -/
theorem acc_in (v : Vec Ideal S1x1x2048 .f32) (h : S1x1x2048.ShapeCasts S2048) (q : Fin 2048) :
    shapeCast S2048 v h (ix1 q) = v (ix3 (0 : Fin 1) (0 : Fin 1) q) := shapeCast_11a_a_apply v h q
theorem acc_out (v : FVec Ideal S2048 .f32) (h : S2048.ShapeCasts S1x1x2048) (u w : Fin 1) (q : Fin 2048) :
    shapeCast S1x1x2048 v h (ix3 u w q) = v (ix1 q) := shapeCast_a_11a_apply v h u w q
theorem rows_out (v : FVec Ideal S1024 .f32) (h : S1024.ShapeCasts S1x1x1024) (u w : Fin 1) (r : Fin 1024) :
    shapeCast S1x1x1024 v h (ix3 u w r) = v (ix1 r) := shapeCast_a_11a_apply v h u w r

/-- The first slab's store: the accumulator's slab met with the tile's column minima. -/
theorem store_first (v3 : Vec Ideal S1x1024x3 .f32) (v9 : Vec Ideal S1x3x2048 .f32) (v40 : Vec Ideal S1x1x2048 .f32)
    (u w : Fin 1) (q : Fin 2048) :
    k0_pay10 (k0_pay9 v3 v9) v40 (ix3 u w q) = min (v40 (ix3 0 0 q)) (⨅ r : Fin 1024, pairDist v3 v9 r q) := by
  unfold k0_pay10 k0_pay9
  dsimp only
  rw [acc_out, minimumf_apply, acc_in, col_min]
  exact congrArg (min _) (iInf_congr fun r => (first_slab v3 v9 r q).trans (core_eq v3 v9 _ r q))

/-- The second slab's store. -/
theorem store_second (v3 : Vec Ideal S1x1024x3 .f32) (v46 : Vec Ideal S1x3x2048 .f32) (v77 : Vec Ideal S1x1x2048 .f32)
    (u w : Fin 1) (q : Fin 2048) :
    k0_pay13 (k0_pay5 v3) (k0_pay6 v3) v46 v77 (ix3 u w q) = min (v77 (ix3 0 0 q)) (⨅ r : Fin 1024, pairDist v3 v46 r q) := by
  unfold k0_pay13
  dsimp only
  rw [acc_out, minimumf_apply, acc_in, col_min]
  exact congrArg (min _) (iInf_congr fun r => (second_slab _ _ v46 r q).trans (core_eq v3 v46 _ r q))

/-- The third slab's store. -/
theorem store_third (v3 : Vec Ideal S1x1024x3 .f32) (v83 : Vec Ideal S1x3x2048 .f32) (v114 : Vec Ideal S1x1x2048 .f32)
    (u w : Fin 1) (q : Fin 2048) :
    k0_pay16 (k0_pay5 v3) (k0_pay6 v3) v83 v114 (ix3 u w q) = min (v114 (ix3 0 0 q)) (⨅ r : Fin 1024, pairDist v3 v83 r q) := by
  unfold k0_pay16
  dsimp only
  rw [acc_out, minimumf_apply, acc_in, col_min]
  exact congrArg (min _) (iInf_congr fun r => (third_slab _ _ v83 r q).trans (core_eq v3 v83 _ r q))

/-- The fourth slab's store. -/
theorem store_fourth (v3 : Vec Ideal S1x1024x3 .f32) (v120 : Vec Ideal S1x3x2048 .f32) (v151 : Vec Ideal S1x1x2048 .f32)
    (u w : Fin 1) (q : Fin 2048) :
    k0_pay2 (k0_pay5 v3) (k0_pay6 v3) (k0_pay17 v120) (k0_pay18 v120) v151 (ix3 u w q)
      = min (v151 (ix3 0 0 q)) (⨅ r : Fin 1024, pairDist v3 v120 r q) := by
  unfold k0_pay2
  dsimp only
  rw [acc_out, minimumf_apply, acc_in, col_min]
  exact congrArg (min _) (iInf_congr fun r => (fourth_slab _ _ v120 r q).trans (core_eq v3 v120 _ r q))

/-- The running row minimum after the first slab: from +∞. -/
theorem rows_first (v3 : Vec Ideal S1x1024x3 .f32) (v9 : Vec Ideal S1x3x2048 .f32) (r : Fin 1024) :
    k0_pay8 v3 v9 (ix1 r) = min ⊤ (⨅ q : Fin 2048, pairDist v3 v9 r q) := by
  unfold k0_pay8
  dsimp only
  rw [minimumf_apply, broadcast_apply, row_min, show (Scalar.ofBits .f32 0x7F800000#32 : Ideal .f32) = ⊤ from ofBits_pinf]
  exact congrArg (min _) (iInf_congr fun q => (first_slab v3 v9 r q).trans (core_eq v3 v9 _ r q))

/-- After the second slab. -/
theorem rows_second (v3 : Vec Ideal S1x1024x3 .f32) (v38 : FVec Ideal S1024 .f32) (v46 : Vec Ideal S1x3x2048 .f32) (r : Fin 1024) :
    k0_pay12 (k0_pay5 v3) (k0_pay6 v3) v38 v46 (ix1 r) = min (v38 (ix1 r)) (⨅ q : Fin 2048, pairDist v3 v46 r q) := by
  unfold k0_pay12
  dsimp only
  rw [minimumf_apply, row_min]
  exact congrArg (min _) (iInf_congr fun q => (second_slab _ _ v46 r q).trans (core_eq v3 v46 _ r q))

/-- After the third slab. -/
theorem rows_third (v3 : Vec Ideal S1x1024x3 .f32) (v75 : FVec Ideal S1024 .f32) (v83 : Vec Ideal S1x3x2048 .f32) (r : Fin 1024) :
    k0_pay15 (k0_pay5 v3) (k0_pay6 v3) v75 v83 (ix1 r) = min (v75 (ix1 r)) (⨅ q : Fin 2048, pairDist v3 v83 r q) := by
  unfold k0_pay15
  dsimp only
  rw [minimumf_apply, row_min]
  exact congrArg (min _) (iInf_congr fun q => (third_slab _ _ v83 r q).trans (core_eq v3 v83 _ r q))

/-- The row minima's store, after the fourth slab. -/
theorem rows_store (v3 : Vec Ideal S1x1024x3 .f32) (v112 : FVec Ideal S1024 .f32) (v120 : Vec Ideal S1x3x2048 .f32)
    (u w : Fin 1) (r : Fin 1024) :
    k0_pay3 (k0_pay5 v3) (k0_pay6 v3) v112 (k0_pay17 v120) (k0_pay18 v120) (ix3 u w r)
      = min (v112 (ix1 r)) (⨅ q : Fin 2048, pairDist v3 v120 r q) := by
  unfold k0_pay3
  dsimp only
  rw [rows_out, minimumf_apply, row_min]
  exact congrArg (min _) (iInf_congr fun q => (fourth_slab _ _ v120 r q).trans (core_eq v3 v120 _ r q))

/-- The fill of the accumulator at a batch's first tile: +∞ everywhere. -/
theorem fill_apply (u w : Fin 1) (m : Fin 8192) : k0_pay4 (F := Ideal) (ix3 u w m) = ⊤ := by
  unfold k0_pay4
  refine (shapeCast_a_11a_apply _ _ u w m).trans ?_
  exact ofBits_pinf

end Cert.KernelIdeal.Tile

end
-- ==== Proof.LibCanonAppend.lean ====
/-
  The contents a list of unmasked writes leaves (its canon: at each index the payload of the newest piece holding it),
  when the list is newer pieces followed by older ones: an index no newer piece holds reads the older pieces' canon, and
  an index some newer piece holds reads the one function the newer pieces are blocks of, whatever lies beneath.
-/
import Idealize.ShloMosaic.Lib.Pipeline.Value

namespace Idealize.ShloMosaic.View

variable {Val : EltTy → Type} {S : Shape} {e : EltTy}

/-- An index that none of the newer pieces `L₁` holds reads what the older pieces `L₂` left. -/
theorem canon_append_of_forall_not_mem [∀ e, Nonempty (Val e)] :
    ∀ (L₁ L₂ : List (Piece Val S e)) (y : S.Idx) (_ : ∀ p ∈ L₁, y ∉ p.1.set), canon (L₁ ++ L₂) y = canon L₂ y
  | [], _, _, _ => rfl
  | p :: L, L₂, y, h => by
    rw [List.cons_append, canon_cons_of_not_mem _ _ (h p List.mem_cons_self)]
    exact canon_append_of_forall_not_mem L L₂ y fun q hq => h q (List.mem_cons_of_mem _ hq)

/-- When every newer piece is a block of ONE function `G` of the buffer's index, an index some newer piece holds reads
    `G` there, whatever the older pieces beneath are. -/
theorem canon_append_of_pieces [∀ e, Nonempty (Val e)] (G : S.Idx → Val e) :
    ∀ (L₁ L₂ : List (Piece Val S e)) (_ : ∀ p ∈ L₁, ∀ x : p.1.shape.Idx, p.2 x = G (p.1.emb x)) (y : S.Idx)
      (_ : ∃ p ∈ L₁, y ∈ p.1.set), canon (L₁ ++ L₂) y = G y
  | [], _, _, _, hy => by obtain ⟨p, hp, _⟩ := hy; exact absurd hp List.not_mem_nil
  | p :: L, L₂, hL, y, hy => by
    by_cases hm : y ∈ p.1.set
    · obtain ⟨x, rfl⟩ := p.1.exists_idx_of_mem hm
      rw [List.cons_append, show p.1.idx x = p.1.emb x from rfl, canon_cons_emb]
      exact hL p List.mem_cons_self x
    · rw [List.cons_append, canon_cons_of_not_mem _ _ hm]
      refine canon_append_of_pieces G L L₂ (fun q hq => hL q (List.mem_cons_of_mem _ hq)) y ?_
      obtain ⟨q, hq, hyq⟩ := hy
      rcases List.mem_cons.mp hq with rfl | hq'
      · exact absurd hyq hm
      · exact ⟨q, hq', hyq⟩

end Idealize.ShloMosaic.View
-- ==== Proof.TileOut.lean ====
/-
  What one grid point leaves in its two output blocks, as functions of the tile of the first cloud (`x0`), the batch's whole
  block of the second cloud (`x1`, coordinate-major, 8192 columns read as four slabs of 2048) and, away from a batch's
  first tile, what the accumulator held (`xo`):
    the row output       r ↦ the least squared distance from row r to any of the 8192 columns;
    the accumulator      m ↦ what it held at m (or +∞ at a batch's first tile) met with the least squared distance from
                             any of the tile's 1024 rows to column m.
-/
import proofs.«107273_j78314433675722_2_alg».proof.Proof.Gen.KernelIdeal.Frame
import proofs.«107273_j78314433675722_2_alg».proof.Proof.TileStores
import proofs.«107273_j78314433675722_2_alg».proof.Proof.LibCanonAppend
import Idealize.ShloMosaic.Lib.Tactic

set_option maxRecDepth 16384

noncomputable section

namespace Cert.KernelIdeal.Tile

open Cert.KernelIdeal Cert.KernelIdeal.Gen Idealize.ShloMosaic Idealize.ShloMosaic.ValueIdx Idealize.ShloMosaic.Keepdims Cert.Chamfer
open Idealize.ShloMosaic.TcCoe Idealize.SL.Sem

theorem hz3 : (![0, 0, 0] : Fin 3 → Nat) = fun _ => 0 := funext fun a => by fin_cases a <;> rfl

/-- A slab of the block: columns o … o+2047. -/
abbrev slab (x1 : Vec Ideal S1x3x8192 .f32) (o : ℕ) (inb : ∀ a, (![0, 0, o] : Fin 3 → ℕ) a + S1x3x2048.size a ≤ S1x3x8192.size a) :
    Vec Ideal S1x3x2048 .f32 := View.ld x1 (Rect.unit (s := S1x3x8192) ![0, 0, o] S1x3x2048.size inb)

/-- A squared distance to column q of a slab is the squared distance to column o + q of the block. -/
theorem pairDist_slab (x0 : Vec Ideal S1x1024x3 .f32) (x1 : Vec Ideal S1x3x8192 .f32) (o : ℕ)
    (inb : ∀ a, (![0, 0, o] : Fin 3 → ℕ) a + S1x3x2048.size a ≤ S1x3x8192.size a) (r : Fin 1024) (q : Fin 2048) (k : Fin 8192)
    (hk : k.val = o + q.val) : pairDist x0 (slab x1 o inb) r q = pairDist x0 x1 r k := by
  have e : ∀ j : Fin 3, slab x1 o inb (ix3 0 j q) = x1 (ix3 0 j k) := fun j => ld_last3_apply o x1 inb 0 j q k hk
  unfold pairDist
  rw [e 0, e 1, e 2]
  refine congrArg₂ (· - ·) (congrArg₂ (· + ·) rfl ?_) rfl
  exact Finset.sum_congr rfl fun j _ => by rw [e j]

/-- The four slabs' minima, taken one after the other from +∞, are the minimum over all 8192 columns. -/
theorem min_four_slabs (f : Fin 8192 → EReal) (g0 g1 g2 g3 : Fin 2048 → EReal)
    (h0 : ∀ (q : Fin 2048) (k : Fin 8192), k.val = 0 + q.val → g0 q = f k)
    (h1 : ∀ (q : Fin 2048) (k : Fin 8192), k.val = 2048 + q.val → g1 q = f k)
    (h2 : ∀ (q : Fin 2048) (k : Fin 8192), k.val = 4096 + q.val → g2 q = f k)
    (h3 : ∀ (q : Fin 2048) (k : Fin 8192), k.val = 6144 + q.val → g3 q = f k) :
    min (min (min (min ⊤ (⨅ q, g0 q)) (⨅ q, g1 q)) (⨅ q, g2 q)) (⨅ q, g3 q) = ⨅ m, f m := by
  refine eq_of_forall_le_iff fun a => ?_
  simp only [le_min_iff, le_iInf_iff, le_top, true_and]
  constructor
  · rintro ⟨⟨⟨H0, H1⟩, H2⟩, H3⟩ m
    have hm := m.isLt
    by_cases c0 : m.val < 2048
    · rw [← h0 ⟨m.val, c0⟩ m (by simp)]; exact H0 _
    by_cases c1 : m.val < 4096
    · rw [← h1 ⟨m.val - 2048, by omega⟩ m (by simp; omega)]; exact H1 _
    by_cases c2 : m.val < 6144
    · rw [← h2 ⟨m.val - 4096, by omega⟩ m (by simp; omega)]; exact H2 _
    · rw [← h3 ⟨m.val - 6144, by omega⟩ m (by simp; omega)]; exact H3 _
  · intro H
    refine ⟨⟨⟨fun q => ?_, fun q => ?_⟩, fun q => ?_⟩, fun q => ?_⟩
    · rw [h0 q ⟨0 + q.val, by have := q.isLt; omega⟩ rfl]; exact H _
    · rw [h1 q ⟨2048 + q.val, by have := q.isLt; omega⟩ rfl]; exact H _
    · rw [h2 q ⟨4096 + q.val, by have := q.isLt; omega⟩ rfl]; exact H _
    · rw [h3 q ⟨6144 + q.val, by have := q.isLt; omega⟩ rfl]; exact H _

/-! ## The accumulator block's slabs as rectangles -/

/-- A slab's local index (u, w, q) sits at (u, w, o + q) of the accumulator block. -/
theorem emb_slab (o : ℕ) (inb : ∀ a, (![0, 0, o] : Fin 3 → ℕ) a + (![1, 1, 2048] : Fin 3 → ℕ) a ≤ S1x1x8192.size a)
    (u w : Fin 1) (q : Fin 2048) (k : Fin 8192) (hk : k.val = o + q.val) :
    (Rect.unit (s := S1x1x8192) ![0, 0, o] ![1, 1, 2048] inb).emb (ix3 u w q) = ix3 u w k := by
  refine funext fun ax => Fin.ext ?_
  match ax with
  | ⟨0, _⟩ => show 0 + 1 * u.val = u.val; omega
  | ⟨1, _⟩ => show 0 + 1 * w.val = w.val; omega
  | ⟨2, _⟩ => show o + 1 * q.val = k.val; omega

/-- Column k lies in the slab at offset o exactly when o ≤ k < o + 2048. -/
theorem mem_slab_iff (o : ℕ) (inb : ∀ a, (![0, 0, o] : Fin 3 → ℕ) a + (![1, 1, 2048] : Fin 3 → ℕ) a ≤ S1x1x8192.size a)
    (u w : Fin 1) (k : Fin 8192) :
    ix3 u w k ∈ (Rect.unit (s := S1x1x8192) ![0, 0, o] ![1, 1, 2048] inb).set ↔ o ≤ k.val ∧ k.val < o + 2048 := by
  rw [Rect.mem_set_unit]
  constructor
  · intro h; exact h ⟨2, by decide⟩
  · intro h ax
    match ax with
    | ⟨0, _⟩ => show 0 ≤ u.val ∧ u.val < 0 + 1; omega
    | ⟨1, _⟩ => show 0 ≤ w.val ∧ w.val < 0 + 1; omega
    | ⟨2, _⟩ => exact h

/-- What the accumulator's slab at offset o reads of contents `xo`. -/
theorem acc_slab (xo : Vec Ideal S1x1x8192 .f32) (o : ℕ)
    (inb : ∀ a, (![0, 0, o] : Fin 3 → ℕ) a + (![1, 1, 2048] : Fin 3 → ℕ) a ≤ S1x1x8192.size a) (q : Fin 2048) (k : Fin 8192)
    (hk : k.val = o + q.val) :
    View.ld xo (Rect.unit (s := S1x1x8192) ![0, 0, o] ![1, 1, 2048] inb) (ix3 0 0 q) = xo (ix3 0 0 k) :=
  ld_last3_apply o xo inb 0 0 q k hk

/-- At a batch's first tile the accumulator is first filled with +∞; a slab read back through the stores made so far,
    none of which reaches it, reads +∞. -/
theorem fresh_slab (v : View sig .tc .vmem S1x1x8192 .f32) (L : List (View.Piece (Elt Ideal) S1x1x8192 .f32))
    (inbF : ∀ a, (![0, 0, 0] : Fin 3 → ℕ) a + S1x1x8192.size a ≤ S1x1x8192.size a) (o : ℕ)
    (inb : ∀ a, (![0, 0, o] : Fin 3 → ℕ) a + (![1, 1, 2048] : Fin 3 → ℕ) a ≤ S1x1x8192.size a)
    (q : Fin 2048) (k : Fin 8192) (hk : k.val = o + q.val) (hL : ∀ p ∈ L, ix3 (0 : Fin 1) (0 : Fin 1) k ∉ p.1.set) :
    v.readCov (L ++ [(⟨Rect.unit ![0, 0, 0] S1x1x8192.size inbF, k0_pay4 (F := Ideal)⟩ : View.Piece (Elt Ideal) S1x1x8192 .f32)])
      (Rect.unit (s := S1x1x8192) ![0, 0, o] ![1, 1, 2048] inb).toLoadRect (ix3 0 0 q) = ⊤ := by
  rw [View.readCov_eq_canon']
  show View.canon _ ((Rect.unit (s := S1x1x8192) ![0, 0, o] ![1, 1, 2048] inb).emb (ix3 0 0 q)) = ⊤
  rw [emb_slab o inb 0 0 q k hk, View.canon_append_of_forall_not_mem _ _ _ hL, View.canon_unit_zero hz3]
  exact fill_apply 0 0 k

/-! ## The row output -/

/-- At a batch's first tile. -/
theorem rows_A (c : Dev nD) (i : grid0.Coords) (a2 : Memref sig .tc .vmem S1x1024x3 .f32) (h2 : a2.IsWhole)
    (a3 : Memref sig .tc .vmem S1x3x8192 .f32) (h3 : a3.IsWhole) (a4 : Memref sig .tc .vmem S1x1x1024 .f32) (h4 : a4.IsWhole)
    (a5 : Memref sig .tc .vmem S1x1x8192 .f32) (h5 : a5.IsWhole) (hc : cond0_0 i)
    (x0 : Vec Ideal S1x1024x3 .f32) (x1 : Vec Ideal S1x3x8192 .f32) (u w : Fin 1) (r : Fin 1024) :
    out0_A_2 (F := Ideal) c i a2 h2 a3 h3 a4 h4 a5 h5 hc x0 x1 (ix3 u w r) = ⨅ m : Fin 8192, pairDist x0 x1 r m := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S1x1024x3) hz3]
  rw [rows_store, rows_third, rows_second, rows_first]
  exact min_four_slabs (fun m => pairDist x0 x1 r m) _ _ _ _
    (fun q k hk => pairDist_slab x0 x1 0 _ r q k hk) (fun q k hk => pairDist_slab x0 x1 2048 _ r q k hk)
    (fun q k hk => pairDist_slab x0 x1 4096 _ r q k hk) (fun q k hk => pairDist_slab x0 x1 6144 _ r q k hk)

/-- At every other tile: the same (the row output does not read the accumulator). -/
theorem rows_B (c : Dev nD) (i : grid0.Coords) (a2 : Memref sig .tc .vmem S1x1024x3 .f32) (h2 : a2.IsWhole)
    (a3 : Memref sig .tc .vmem S1x3x8192 .f32) (h3 : a3.IsWhole) (a4 : Memref sig .tc .vmem S1x1x1024 .f32) (h4 : a4.IsWhole)
    (a5 : Memref sig .tc .vmem S1x1x8192 .f32) (h5 : a5.IsWhole) (hc : ¬cond0_0 i)
    (x0 : Vec Ideal S1x1024x3 .f32) (x1 : Vec Ideal S1x3x8192 .f32) (xo : Vec Ideal S1x1x8192 .f32) (u w : Fin 1) (r : Fin 1024) :
    out0_B_2 (F := Ideal) c i a2 h2 a3 h3 a4 h4 a5 h5 hc x0 x1 xo (ix3 u w r) = ⨅ m : Fin 8192, pairDist x0 x1 r m := by
  unfold out0_B_2
  rw [View.read_writes_eq_canon _ _ _ (cover0_B_2 c i a2 h2 a3 h3 a4 h4 a5 h5 hc x0 x1 xo)]
  unfold kernelRun0_B
  dsimp only
  sl_unfold_words
  rw [View.canon_unit_zero hz3]
  simp only [View.readAt_eq_ld, h2.read_unread, h3.read_unread, View.ld_unit_zero (S := S1x1024x3) hz3]
  rw [rows_store, rows_third, rows_second, rows_first]
  exact min_four_slabs (fun m => pairDist x0 x1 r m) _ _ _ _
    (fun q k hk => pairDist_slab x0 x1 0 _ r q k hk) (fun q k hk => pairDist_slab x0 x1 2048 _ r q k hk)
    (fun q k hk => pairDist_slab x0 x1 4096 _ r q k hk) (fun q k hk => pairDist_slab x0 x1 6144 _ r q k hk)

/-! ## The accumulator -/

/-- Which slab holds column m. -/
theorem slab_cases (m : Fin 8192) :
    (0 ≤ m.val ∧ m.val < 0 + 2048) ∨ (2048 ≤ m.val ∧ m.val < 2048 + 2048) ∨ (4096 ≤ m.val ∧ m.val < 4096 + 2048)
      ∨ (6144 ≤ m.val ∧ m.val < 6144 + 2048) := by
  have := m.isLt; omega

/-- Away from a batch's first tile: what the accumulator held, met with the tile's column minima. -/
theorem acc_B (c : Dev nD) (i : grid0.Coords) (a2 : Memref sig .tc .vmem S1x1024x3 .f32) (h2 : a2.IsWhole)
    (a3 : Memref sig .tc .vmem S1x3x8192 .f32) (h3 : a3.IsWhole) (a4 : Memref sig .tc .vmem S1x1x1024 .f32) (h4 : a4.IsWhole)
    (a5 : Memref sig .tc .vmem S1x1x8192 .f32) (h5 : a5.IsWhole) (hc : ¬cond0_0 i)
    (x0 : Vec Ideal S1x1024x3 .f32) (x1 : Vec Ideal S1x3x8192 .f32) (xo : Vec Ideal S1x1x8192 .f32) (u w : Fin 1) (m : Fin 8192) :
    out0_B_3 (F := Ideal) c i a2 h2 a3 h3 a4 h4 a5 h5 hc x0 x1 xo (ix3 u w m)
      = min (xo (ix3 u w m)) (⨅ r : Fin 1024, pairDist x0 x1 r m) := by
  unfold out0_B_3
  rw [View.read_writes_eq_canon _ _ _ (cover0_B_3 c i a2 h2 a3 h3 a4 h4 a5 h5 hc x0 x1 xo)]
  unfold kernelRun0_B
  dsimp only
  sl_unfold_words
  simp only [View.readAt_eq_ld, h2.read_unread, h3.read_unread, h5.read_unread, View.ld_unit_zero (S := S1x1024x3) hz3]
  refine View.canon_apply_of_pieces (fun y => min (xo y) (⨅ r : Fin 1024, pairDist x0 x1 r (y 2))) _ ?_ (ix3 u w m) ?_
  · intro p hp x
    simp only [List.mem_cons, List.mem_nil_iff, or_false] at hp
    rcases hp with rfl | rfl | rfl | rfl
    all_goals
      obtain ⟨u', w', q, rfl⟩ : ∃ (u' w' : Fin 1) (q : Fin 2048), x = ix3 u' w' q := ⟨x 0, x 1, x 2, eq_ix3 x⟩
      obtain rfl : u' = 0 := Subsingleton.elim _ _
      obtain rfl : w' = 0 := Subsingleton.elim _ _
    · have hk : (⟨6144 + q.val, by have := q.isLt; omega⟩ : Fin 8192).val = 6144 + q.val := rfl
      refine (store_fourth x0 _ _ 0 0 q).trans ?_
      rw [emb_slab 6144 _ 0 0 q _ hk, acc_slab xo 6144 _ q _ hk]
      exact congrArg (min _) (iInf_congr fun r => pairDist_slab x0 x1 6144 _ r q _ hk)
    · have hk : (⟨4096 + q.val, by have := q.isLt; omega⟩ : Fin 8192).val = 4096 + q.val := rfl
      refine (store_third x0 _ _ 0 0 q).trans ?_
      rw [emb_slab 4096 _ 0 0 q _ hk, acc_slab xo 4096 _ q _ hk]
      exact congrArg (min _) (iInf_congr fun r => pairDist_slab x0 x1 4096 _ r q _ hk)
    · have hk : (⟨2048 + q.val, by have := q.isLt; omega⟩ : Fin 8192).val = 2048 + q.val := rfl
      refine (store_second x0 _ _ 0 0 q).trans ?_
      rw [emb_slab 2048 _ 0 0 q _ hk, acc_slab xo 2048 _ q _ hk]
      exact congrArg (min _) (iInf_congr fun r => pairDist_slab x0 x1 2048 _ r q _ hk)
    · have hk : (⟨0 + q.val, by have := q.isLt; omega⟩ : Fin 8192).val = 0 + q.val := rfl
      refine (store_first x0 _ _ 0 0 q).trans ?_
      rw [emb_slab 0 _ 0 0 q _ hk, acc_slab xo 0 _ q _ hk]
      exact congrArg (min _) (iInf_congr fun r => pairDist_slab x0 x1 0 _ r q _ hk)
  · rcases slab_cases m with h | h | h | h
    · refine ⟨_, List.mem_cons_of_mem _ (List.mem_cons_of_mem _ (List.mem_cons_of_mem _ List.mem_cons_self)), ?_⟩
      exact (mem_slab_iff 0 (by decide) u w m).mpr h
    · refine ⟨_, List.mem_cons_of_mem _ (List.mem_cons_of_mem _ List.mem_cons_self), ?_⟩
      exact (mem_slab_iff 2048 (by decide) u w m).mpr h
    · refine ⟨_, List.mem_cons_of_mem _ List.mem_cons_self, ?_⟩
      exact (mem_slab_iff 4096 (by decide) u w m).mpr h
    · refine ⟨_, List.mem_cons_self, ?_⟩
      exact (mem_slab_iff 6144 (by decide) u w m).mpr h

/-- A column outside the slab at offset o is not in its rectangle. -/
theorem not_mem_slab (o : ℕ) (inb : ∀ a, (![0, 0, o] : Fin 3 → ℕ) a + (![1, 1, 2048] : Fin 3 → ℕ) a ≤ S1x1x8192.size a)
    (u w : Fin 1) (k : Fin 8192) (h : k.val < o ∨ o + 2048 ≤ k.val) :
    ix3 u w k ∉ (Rect.unit (s := S1x1x8192) ![0, 0, o] ![1, 1, 2048] inb).set := fun hm => by
  have := (mem_slab_iff o inb u w k).mp hm; omega

/-- At a batch's first tile: from +∞, the tile's column minima. -/
theorem acc_A (c : Dev nD) (i : grid0.Coords) (a2 : Memref sig .tc .vmem S1x1024x3 .f32) (h2 : a2.IsWhole)
    (a3 : Memref sig .tc .vmem S1x3x8192 .f32) (h3 : a3.IsWhole) (a4 : Memref sig .tc .vmem S1x1x1024 .f32) (h4 : a4.IsWhole)
    (a5 : Memref sig .tc .vmem S1x1x8192 .f32) (h5 : a5.IsWhole) (hc : cond0_0 i)
    (x0 : Vec Ideal S1x1024x3 .f32) (x1 : Vec Ideal S1x3x8192 .f32) (u w : Fin 1) (m : Fin 8192) :
    out0_A_3 (F := Ideal) c i a2 h2 a3 h3 a4 h4 a5 h5 hc x0 x1 (ix3 u w m) = ⨅ r : Fin 1024, pairDist x0 x1 r m := by
  unfold out0_A_3
  rw [View.read_writes_eq_canon _ _ _ (cover0_A_3 c i a2 h2 a3 h3 a4 h4 a5 h5 hc x0 x1)]
  unfold kernelRun0_A
  dsimp only
  sl_unfold_words
  simp only [View.readAt_eq_ld, h2.read_unread, h3.read_unread, View.ld_unit_zero (S := S1x1024x3) hz3]
  refine View.canon_append_of_pieces (Val := Elt Ideal) (S := S1x1x8192) (e := .f32)
    (fun y : S1x1x8192.Idx => (⨅ r : Fin 1024, pairDist x0 x1 r (y 2) : EReal)) [_, _, _, _] [_] ?_ (ix3 u w m) ?_
  · intro p hp x
    simp only [List.mem_cons, List.mem_nil_iff, or_false] at hp
    rcases hp with rfl | rfl | rfl | rfl
    all_goals
      obtain ⟨u', w', q, rfl⟩ : ∃ (u' w' : Fin 1) (q : Fin 2048), x = ix3 u' w' q := ⟨x 0, x 1, x 2, eq_ix3 x⟩
      obtain rfl : u' = 0 := Subsingleton.elim _ _
      obtain rfl : w' = 0 := Subsingleton.elim _ _
    · have hk : (⟨6144 + q.val, by have := q.isLt; omega⟩ : Fin 8192).val = 6144 + q.val := rfl
      refine (store_fourth x0 _ _ 0 0 q).trans ?_
      refine (congrArg₂ min (fresh_slab a5.view [_, _, _] _ 6144 _ q _ hk ?_)
        (iInf_congr fun r => pairDist_slab x0 x1 6144 _ r q _ hk)).trans ?_
      · intro p hp
        simp only [List.mem_cons, List.mem_nil_iff, or_false] at hp
        rcases hp with rfl | rfl | rfl
        · exact not_mem_slab 4096 (by decide) 0 0 _ (Or.inr (by rw [hk]; omega))
        · exact not_mem_slab 2048 (by decide) 0 0 _ (Or.inr (by rw [hk]; omega))
        · exact not_mem_slab 0 (by decide) 0 0 _ (Or.inr (by rw [hk]; omega))
      · rw [emb_slab 6144 _ 0 0 q _ hk]; exact min_eq_right le_top
    · have hk : (⟨4096 + q.val, by have := q.isLt; omega⟩ : Fin 8192).val = 4096 + q.val := rfl
      refine (store_third x0 _ _ 0 0 q).trans ?_
      refine (congrArg₂ min (fresh_slab a5.view [_, _] _ 4096 _ q _ hk ?_)
        (iInf_congr fun r => pairDist_slab x0 x1 4096 _ r q _ hk)).trans ?_
      · intro p hp
        simp only [List.mem_cons, List.mem_nil_iff, or_false] at hp
        rcases hp with rfl | rfl
        · exact not_mem_slab 2048 (by decide) 0 0 _ (Or.inr (by rw [hk]; omega))
        · exact not_mem_slab 0 (by decide) 0 0 _ (Or.inr (by rw [hk]; omega))
      · rw [emb_slab 4096 _ 0 0 q _ hk]; exact min_eq_right le_top
    · have hk : (⟨2048 + q.val, by have := q.isLt; omega⟩ : Fin 8192).val = 2048 + q.val := rfl
      refine (store_second x0 _ _ 0 0 q).trans ?_
      refine (congrArg₂ min (fresh_slab a5.view [_] _ 2048 _ q _ hk ?_)
        (iInf_congr fun r => pairDist_slab x0 x1 2048 _ r q _ hk)).trans ?_
      · intro p hp
        simp only [List.mem_cons, List.mem_nil_iff, or_false] at hp
        rcases hp with rfl
        exact not_mem_slab 0 (by decide) 0 0 _ (Or.inr (by rw [hk]; omega))
      · rw [emb_slab 2048 _ 0 0 q _ hk]; exact min_eq_right le_top
    · have hk : (⟨0 + q.val, by have := q.isLt; omega⟩ : Fin 8192).val = 0 + q.val := rfl
      refine (store_first x0 _ _ 0 0 q).trans ?_
      refine (congrArg₂ min (fresh_slab a5.view [] _ 0 _ q _ hk (fun p hp => absurd hp List.not_mem_nil))
        (iInf_congr fun r => pairDist_slab x0 x1 0 _ r q _ hk)).trans ?_
      rw [emb_slab 0 _ 0 0 q _ hk]; exact min_eq_right le_top
  · rcases slab_cases m with h | h | h | h
    · refine ⟨_, List.mem_cons_of_mem _ (List.mem_cons_of_mem _ (List.mem_cons_of_mem _ List.mem_cons_self)), ?_⟩
      exact (mem_slab_iff 0 (by decide) u w m).mpr h
    · refine ⟨_, List.mem_cons_of_mem _ (List.mem_cons_of_mem _ List.mem_cons_self), ?_⟩
      exact (mem_slab_iff 2048 (by decide) u w m).mpr h
    · refine ⟨_, List.mem_cons_of_mem _ List.mem_cons_self, ?_⟩
      exact (mem_slab_iff 4096 (by decide) u w m).mpr h
    · refine ⟨_, List.mem_cons_self, ?_⟩
      exact (mem_slab_iff 6144 (by decide) u w m).mpr h

end Cert.KernelIdeal.Tile

end
-- ==== Proof.Blocks.lean ====
/-
  The blocks a grid point works on, as pieces of the argument arrays. Point t = 8·b + i of the 4 × 8 grid reads rows
  1024·i … 1024·i + 1023 of batch b of the first cloud, and the whole of batch b of the second cloud with its last two
  axes exchanged (the operand the kernel is called with is the transpose of the second argument). So the squared distance
  the body computes between row r of its tile and column m of its block is the squared distance between point 1024·i + r of
  the first cloud and point m of the second, in batch b.
-/
import proofs.«107273_j78314433675722_2_alg».proof.Proof.Gen.KernelIdeal.Frame
import proofs.«107273_j78314433675722_2_alg».proof.Proof.TileDist
import Idealize.ShloMosaic.Lib.StableHlo.Run
import Idealize.ShloMosaic.Lib.ValueLayout
import Idealize.ShloMosaic.Lib.Tactic

set_option maxRecDepth 16384

noncomputable section

namespace Cert.KernelIdeal.Blocks

open Cert.KernelIdeal Cert.KernelIdeal.Gen Idealize.ShloMosaic Idealize.ShloMosaic.ValueIdx Cert.Chamfer Cert.KernelIdeal.Tile
open Idealize.ShloMosaic.TcCoe Idealize.SL.Sem Idealize.ShloMosaic.StableHlo

variable (m : (ℓ : Loc nD τ sig) → Buf (Elt Ideal) ℓ)

/-- The four windows' block indices at point t: batch t / 8 everywhere, tile t % 8 where the window moves with the tile. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N, _)

/-- The tile of the first cloud at point t. -/
theorem tile_read (c : Dev nD) (t : Fin cfg0.N) (u : Fin 1) (r : Fin 1024) (k : Fin 3) (b : Fin 4) (n : Fin 8192)
    (hb : b.val = t.val / 8) (hn : n.val = t.val % 8 * 1024 + r.val) :
    iblk m c 0 t (ix3 u r k) = V m c main_arg0 (ix3 b n k) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * u.val = b.val; rw [e0]; omega
  | ⟨1, _⟩ => show win0_0.index t (1 : Fin 3) * 1024 + 1 * r.val = n.val; rw [e1]; omega
  | ⟨2, _⟩ => show win0_0.index t (2 : Fin 3) * 3 + 1 * k.val = k.val; rw [e2]; omega

/-- The block of the transposed second cloud at point t: all of batch t / 8. -/
theorem block_read (c : Dev nD) (t : Fin cfg0.N) (u : Fin 1) (k : Fin 3) (mm : Fin 8192) (b : Fin 4) (hb : b.val = t.val / 8) :
    iblk m c 1 t (ix3 u k mm) = V m c main_v0 (ix3 b k mm) := by
  obtain ⟨-, -, -, e0, e1, e2, -⟩ := idx_facts t
  unfold iblk
  rw [View.read_apply]
  show V m c main_v0 _ = V m c main_v0 _
  refine congrArg (V m c main_v0) (funext fun a => Fin.ext ?_)
  match a with
  | ⟨0, _⟩ => show win0_1.index t (0 : Fin 3) * 1 + 1 * u.val = b.val; rw [e0]; omega
  | ⟨1, _⟩ => show win0_1.index t (1 : Fin 3) * 3 + 1 * k.val = k.val; rw [e1]; omega
  | ⟨2, _⟩ => show win0_1.index t (2 : Fin 3) * 8192 + 1 * mm.val = mm.val; rw [e2]; omega

/-- The operand the region finds in the transposed buffer: the second argument with its last two axes exchanged. -/
theorem transposed (c : Dev nD) :
    (V m c main_v0 : S4x3x8192.Idx → EReal)
      = transpose S4x3x8192 [0, 2, 1] (m ((c : Thread nD τ).loc main_arg1)) transposes_S4x8192x3_S4x3x8192_0_2_1 := by
  show StableHlo.after hostOps0 (fun b => m (c, b)) (Proc.devRef .tc main_v0) = _
  after_results

theorem transposed_apply (c : Dev nD) (b : Fin 4) (k : Fin 3) (mm : Fin 8192) :
    V m c main_v0 (ix3 b k mm) = m ((c : Thread nD τ).loc main_arg1) (ix3 b mm k) := by
  rw [transposed m c]
  exact transpose_ix3_021_apply _ _ b k mm

/-- A tile whose rows are points of the first cloud and a block whose columns are points of the second give the clouds'
    squared distance: the three products added one after the other are the sum over the three coordinates. -/
theorem pairDist_eq_dist (P : (⟨3, ![1, 1024, 3]⟩ : Shape).Idx → EReal) (Q : (⟨3, ![1, 3, 8192]⟩ : Shape).Idx → EReal)
    (X Y : Cloud.Idx → EReal) (r : Fin 1024) (mm : Fin 8192) (b : Fin 4) (n : Fin 8192)
    (hX : ∀ k : Fin 3, P (ix3 0 r k) = X (ix3 b n k)) (hY : ∀ k : Fin 3, Q (ix3 0 k mm) = Y (ix3 b mm k)) :
    pairDist P Q r mm = Chamfer.dist X Y b n mm := by
  unfold pairDist Chamfer.dist
  rw [hX 0, hX 1, hX 2, hY 0, hY 1, hY 2]
  refine congrArg₂ (· - ·) (congrArg₂ (· + ·) ?_ ?_) (congrArg (two * ·) ?_)
  · exact Finset.sum_congr rfl fun k _ => by rw [hX k]
  · exact Finset.sum_congr rfl fun k _ => by rw [hY k]
  · exact (Fin.sum_univ_three (fun k : Fin 3 => X (ix3 b n k) * Y (ix3 b mm k))).symm

/-- The body's squared distance on the blocks of point t is the squared distance between the clouds' points. -/
theorem pairDist_blocks (c : Dev nD) (t : Fin cfg0.N) (r : Fin 1024) (mm : Fin 8192) (b : Fin 4) (n : Fin 8192)
    (hb : b.val = t.val / 8) (hn : n.val = t.val % 8 * 1024 + r.val) :
    pairDist (iblk m c 0 t) (iblk m c 1 t) r mm
      = Chamfer.dist (m ((c : Thread nD τ).loc main_arg0)) (m ((c : Thread nD τ).loc main_arg1)) b n mm :=
  pairDist_eq_dist _ _ (m ((c : Thread nD τ).loc main_arg0)) (m ((c : Thread nD τ).loc main_arg1)) r mm b n
    (fun k => (tile_read m c t 0 r k b n hb hn).trans (congrFun (V_main_arg0 m c) _))
    (fun k => (block_read m c t 0 k mm b hb).trans (transposed_apply m c b k mm))

end Cert.KernelIdeal.Blocks

end
-- ==== Proof.Accumulate.lean ====
/-
  The accumulation over a batch's eight tiles. After tile i of batch b the accumulator block holds, at column m, the least
  squared distance from point m of the second cloud to the first 1024·(i + 1) points of the first cloud: the first tile
  starts it from +∞, each later tile meets what it held with its own 1024 rows' minimum. After the eighth tile this is the
  minimum over all 8192 points. The row output of every tile is already final: the least squared distance from each of
  its 1024 points to the whole second cloud.
-/
import proofs.«107273_j78314433675722_2_alg».proof.Proof.TileOut
import proofs.«107273_j78314433675722_2_alg».proof.Proof.Blocks

set_option maxRecDepth 16384

noncomputable section

namespace Cert.KernelIdeal.Accum

open Cert.KernelIdeal Cert.KernelIdeal.Gen Idealize.ShloMosaic Idealize.ShloMosaic.ValueIdx Cert.Chamfer Cert.KernelIdeal.Tile
open Cert.KernelIdeal.Blocks Idealize.ShloMosaic.TcCoe Idealize.SL.Sem

/-! ## Minima over an initial segment of the points, tile by tile -/

/-- The first tile's 1024 points. -/
theorem iInf_first_tile (f : Fin 8192 → EReal) (g : Fin 1024 → EReal)
    (hg : ∀ (r : Fin 1024) (n : Fin 8192), n.val = 0 * 1024 + r.val → g r = f n) :
    ⨅ r, g r = ⨅ (n : Fin 8192) (_ : n.val < (0 + 1) * 1024), f n := by
  refine eq_of_forall_le_iff fun a => ?_
  simp only [le_iInf_iff]
  constructor
  · intro H n hn
    rw [← hg ⟨n.val, by omega⟩ n (by simp)]; exact H _
  · intro H r
    have hr := r.isLt
    rw [hg r ⟨0 * 1024 + r.val, by omega⟩ rfl]
    exact H _ (by show 0 * 1024 + r.val < (0 + 1) * 1024; omega)

/-- One more tile: the minimum over the first (i + 1)·1024 points is the minimum over the first i·1024 met with the
    minimum over the next 1024. -/
theorem iInf_next_tile (f : Fin 8192 → EReal) (g : Fin 1024 → EReal) (i : ℕ) (hi : i < 8)
    (hg : ∀ (r : Fin 1024) (n : Fin 8192), n.val = i * 1024 + r.val → g r = f n) :
    min (⨅ (n : Fin 8192) (_ : n.val < i * 1024), f n) (⨅ r, g r) = ⨅ (n : Fin 8192) (_ : n.val < (i + 1) * 1024), f n := by
  refine eq_of_forall_le_iff fun a => ?_
  simp only [le_min_iff, le_iInf_iff]
  constructor
  · rintro ⟨H1, H2⟩ n hn
    by_cases c : n.val < i * 1024
    · exact H1 n c
    · rw [← hg ⟨n.val - i * 1024, by omega⟩ n (by simp; omega)]; exact H2 _
  · intro H
    refine ⟨fun n hn => H n (by omega), fun r => ?_⟩
    have hr := r.isLt
    rw [hg r ⟨i * 1024 + r.val, by omega⟩ rfl]
    exact H _ (by show i * 1024 + r.val < (i + 1) * 1024; omega)

/-- All eight tiles: every point. -/
theorem iInf_all_tiles (f : Fin 8192 → EReal) : ⨅ (n : Fin 8192) (_ : n.val < (7 + 1) * 1024), f n = ⨅ n, f n :=
  iInf_congr fun n => iInf_pos (by have := n.isLt; omega)

/-! ## The outputs after each point -/

variable (m : (ℓ : Loc nD τ sig) → Buf (Elt Ideal) ℓ)

/-- The two clouds, as launched. -/
abbrev X (c : Dev nD) : Cloud.Idx → EReal := m ((c : Thread nD τ).loc main_arg0)
abbrev Y (c : Dev nD) : Cloud.Idx → EReal := m ((c : Thread nD τ).loc main_arg1)

/-- The row output of any point: final at once. -/
theorem rows_at (c : Dev nD) (t : Fin cfg0.N) (u w : Fin 1) (r : Fin 1024) (b : Fin 4) (n : Fin 8192)
    (hb : b.val = t.val / 8) (hn : n.val = t.val % 8 * 1024 + r.val) :
    (outsAt0 m c t.val t.isLt).1 (ix3 u w r) = nearest1 (X m c) (Y m c) b n := by
  by_cases h0 : t.val % 8 = 0
  · rw [outsAt0_A m c t h0]
    dsimp only
    refine (rows_A c (grid0.coords t) (ms0_0 t) (hs0_0 t) (ms0_1 t) (hs0_1 t) (ms0_2 t) (hs0_2 t) (ms0_3 t) (hs0_3 t) ((hcond0_0 t).mpr h0) (iblk m c 0 t) (iblk m c 1 t) u w r).trans ?_
    exact iInf_congr fun mm => pairDist_blocks m c t r mm b n hb hn
  · rw [outsAt0_B m c t h0]
    dsimp only
    refine (rows_B c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2 u w r).trans ?_
    exact iInf_congr fun mm => pairDist_blocks m c t r mm b n hb hn

/-- The accumulator after a batch's first tile. -/
theorem acc_first (c : Dev nD) (t : Fin cfg0.N) (h0 : t.val % 8 = 0) (u w : Fin 1) (mm : Fin 8192) (b : Fin 4)
    (hb : b.val = t.val / 8) :
    (outsAt0 m c t.val t.isLt).2 (ix3 u w mm)
      = ⨅ (nn : Fin 8192) (_ : nn.val < (t.val % 8 + 1) * 1024), Chamfer.dist (X m c) (Y m c) b nn mm := by
  rw [outsAt0_A m c t h0]
  dsimp only
  refine (acc_A c (grid0.coords t) (ms0_0 t) (hs0_0 t) (ms0_1 t) (hs0_1 t) (ms0_2 t) (hs0_2 t) (ms0_3 t) (hs0_3 t) ((hcond0_0 t).mpr h0) (iblk m c 0 t) (iblk m c 1 t) u w mm).trans ?_
  rw [h0]
  exact iInf_first_tile _ _ fun r n hn => pairDist_blocks m c t r mm b n hb (by rw [h0]; exact hn)

/-- The accumulator after a later tile, from what it held after the tile before. -/
theorem acc_next (c : Dev nD) (t : Fin cfg0.N) (h0 : ¬t.val % 8 = 0) (u w : Fin 1) (mm : Fin 8192) (b : Fin 4)
    (hb : b.val = t.val / 8)
    (ih : (outsAt0 m c (t.val - 1) (Nat.lt_of_le_of_lt (Nat.sub_le _ _) t.isLt)).2 (ix3 u w mm)
      = ⨅ (nn : Fin 8192) (_ : nn.val < ((t.val - 1) % 8 + 1) * 1024), Chamfer.dist (X m c) (Y m c) b nn mm) :
    (outsAt0 m c t.val t.isLt).2 (ix3 u w mm)
      = ⨅ (nn : Fin 8192) (_ : nn.val < (t.val % 8 + 1) * 1024), Chamfer.dist (X m c) (Y m c) b nn mm := by
  rw [outsAt0_B m c t h0]
  dsimp only
  refine (acc_B c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
    (outsAt0 m c (t.val - 1) (Nat.lt_of_le_of_lt (Nat.sub_le _ _) t.isLt)).2 u w mm).trans ?_
  rw [ih]
  have e : (t.val - 1) % 8 + 1 = t.val % 8 := by omega
  rw [e]
  exact iInf_next_tile _ _ (t.val % 8) (Nat.mod_lt _ (by decide)) fun r n hn => pairDist_blocks m c t r mm b n hb hn

/-- The accumulator after point n: by induction on the point. -/
theorem acc_at (c : Dev nD) : ∀ (n : ℕ) (h : n < cfg0.N) (u w : Fin 1) (mm : Fin 8192) (b : Fin 4), b.val = n / 8 →
    (outsAt0 m c n h).2 (ix3 u w mm)
      = ⨅ (nn : Fin 8192) (_ : nn.val < (n % 8 + 1) * 1024), Chamfer.dist (X m c) (Y m c) b nn mm
  | 0, h, u, w, mm, b, hb => acc_first m c ⟨0, h⟩ rfl u w mm b hb
  | n + 1, h, u, w, mm, b, hb => by
    by_cases h0 : (n + 1) % 8 = 0
    · exact acc_first m c ⟨n + 1, h⟩ h0 u w mm b hb
    · exact acc_next m c ⟨n + 1, h⟩ h0 u w mm b hb (acc_at c n (Nat.lt_of_succ_lt h) u w mm b (by omega))

/-- After a batch's last tile: the minimum over the whole first cloud. -/
theorem acc_last (c : Dev nD) (t : Fin cfg0.N) (h7 : t.val % 8 = 7) (u w : Fin 1) (mm : Fin 8192) (b : Fin 4)
    (hb : b.val = t.val / 8) :
    (outsAt0 m c t.val t.isLt).2 (ix3 u w mm) = nearest2 (X m c) (Y m c) b mm := by
  rw [acc_at m c t.val t.isLt u w mm b hb, h7]
  exact iInf_all_tiles _

end Cert.KernelIdeal.Accum

end
-- ==== Proof.LibMidUnit.lean ====
/-
  Dropping a unit axis in the middle: an [a, 1, b] array cast to [a, b] reads, at (i, j), the operand at (i, 0, j) — the
  same row-major position.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    simp)

end Idealize.ShloMosaic.Keepdims
-- ==== Proof.KernelValue.lean ====
/-
  What the kernel's two result arrays hold after the run. Every grid point writes its row block back, so the row array
  [4, 1, 8192] ends holding at (b, 0, n) the least squared distance from point n of the first cloud to the second cloud;
  the accumulator is written back only after a batch's eighth tile, when it holds at (b, 0, m) the least squared distance
  from point m of the second cloud to the first. The two reshapes after the region only drop the unit axis.
-/
import proofs.«107273_j78314433675722_2_alg».proof.Proof.Accumulate
import proofs.«107273_j78314433675722_2_alg».proof.Proof.LibMidUnit
import Idealize.ShloMosaic.Lib.StableHlo.Run

set_option maxRecDepth 16384

noncomputable section

namespace Cert.KernelIdeal.KValue

open Cert.KernelIdeal Cert.KernelIdeal.Gen Idealize.ShloMosaic Idealize.ShloMosaic.ValueIdx Cert.Chamfer Cert.KernelIdeal.Tile
open Cert.KernelIdeal.Blocks Cert.KernelIdeal.Accum Idealize.ShloMosaic.TcCoe Idealize.SL.Sem Idealize.ShloMosaic.StableHlo
open Idealize.ShloMosaic.Pipeline (Dat)
open Idealize.ShloMosaic.Keepdims

variable (m : (ℓ : Loc nD τ sig) → Buf (Elt Ideal) ℓ) (ρ : Dev nD → PrngReg)

/-- The row array and the accumulator array at the end. -/
abbrev rowsArr (c : Dev nD) : S4x1x8192.Idx → EReal := fun y => nearest1 (X m c) (Y m c) (y 0) (y 2)
abbrev accArr (c : Dev nD) : S4x1x8192.Idx → EReal := fun y => nearest2 (X m c) (Y m c) (y 0) (y 2)

/-- What point t writes back of the row output is block t of the row array. -/
theorem flushed_rows (c : Dev nD) (t : Fin cfg0.N) :
    (dats m 0 c).flushed 2 t = ((cfg0.win 2).blk t).view.read (Elt Ideal) (rowsArr m c) := by
  show (cfg0.win 2).cut (grid0.coords t) ((dats m 0 c).after 2 t) = _
  rw [after0_2]
  obtain ⟨-, -, -, -, -, -, e0, e1, e2, -⟩ := idx_facts t
  have hN : t.val < 32 := lt_of_lt_of_eq t.isLt N_0
  funext j
  obtain ⟨u, w, r, rfl⟩ : ∃ (u w : Fin 1) (r : Fin 1024), j = ix3 u w r := ⟨j 0, j 1, j 2, eq_ix3 j⟩
  show (outsAt0 m c t.val t.isLt).1 (ix3 u w r) = rowsArr m c (((cfg0.win 2).blk t).view.emb (ix3 u w r))
  rw [rows_at m c t u w r ⟨t.val / 8, by omega⟩ ⟨t.val % 8 * 1024 + r.val, by have := r.isLt; omega⟩ rfl rfl]
  refine congrArg₂ (nearest1 (X m c) (Y m c)) (Fin.ext ?_) (Fin.ext ?_)
  · show t.val / 8 = win0_2.index t (0 : Fin 3) * 1 + 1 * u.val
    rw [e0]; omega
  · show t.val % 8 * 1024 + r.val = win0_2.index t (2 : Fin 3) * 1024 + 1 * r.val
    rw [e2]; omega

/-- Every entry of the row array lies in some point's block. -/
theorem cover_rows (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = 8 * (i 0).val + (i 2).val / 1024 :=
    ⟨⟨8 * (i 0).val + (i 2).val / 1024, by rw [show cfg0.N = 32 from N_0]; omega⟩, rfl⟩
  obtain ⟨-, -, -, -, -, -, e0, e1, e2, -⟩ := idx_facts t
  refine ⟨t, flush0_2 t, ?_⟩
  show i ∈ ((View.whole main_v1_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 1024 ≤ (i 2).val ∧ (i 2).val < win0_2.index t (2 : Fin 3) * 1024 + 1024
    rw [e2]; omega

/-- So the row array ends holding the first result's entries. -/
theorem final_rows (c : Dev nD) : (dats m 0 c).arrAt 2 cfg0.N = rowsArr m c :=
  (dats m 0 c).arrAt_eq_of_cover 2 (rowsArr m c) (fun t _ => flushed_rows m c t) (cover_rows)

/-- What a batch's last point writes back of the accumulator is the batch's block of the accumulator array. -/
theorem flushed_acc (c : Dev nD) (t : Fin cfg0.N) (hf : (cfg0.win 3).flush t = true) :
    (dats m 0 c).flushed 3 t = ((cfg0.win 3).blk t).view.read (Elt Ideal) (accArr m c) := by
  have h7 : t.val % 8 = 7 := (flush0_3 t).mp hf
  show (cfg0.win 3).cut (grid0.coords t) ((dats m 0 c).after 3 t) = _
  rw [after0_3]
  obtain ⟨-, -, -, -, -, -, -, -, -, e0, e1, e2⟩ := idx_facts t
  have hN : t.val < 32 := lt_of_lt_of_eq t.isLt N_0
  funext j
  obtain ⟨u, w, mm, rfl⟩ : ∃ (u w : Fin 1) (mm : Fin 8192), j = ix3 u w mm := ⟨j 0, j 1, j 2, eq_ix3 j⟩
  show (outsAt0 m c t.val t.isLt).2 (ix3 u w mm) = accArr m c (((cfg0.win 3).blk t).view.emb (ix3 u w mm))
  rw [acc_last m c t h7 u w mm ⟨t.val / 8, by omega⟩ rfl]
  refine congrArg₂ (nearest2 (X m c) (Y m c)) (Fin.ext ?_) (Fin.ext ?_)
  · show t.val / 8 = win0_3.index t (0 : Fin 3) * 1 + 1 * u.val
    rw [e0]; omega
  · show mm.val = win0_3.index t (2 : Fin 3) * 8192 + 1 * mm.val
    rw [e2]; omega

/-- Every entry of the accumulator array lies in the block its batch's last point writes back. -/
theorem cover_acc (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = 8 * (i 0).val + 7 :=
    ⟨⟨8 * (i 0).val + 7, by rw [show cfg0.N = 32 from N_0]; omega⟩, rfl⟩
  obtain ⟨-, -, -, -, -, -, -, -, -, e0, e1, e2⟩ := idx_facts t
  refine ⟨t, (flush0_3 t).mpr (by omega), ?_⟩
  show i ∈ ((View.whole main_v1_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 8192 ≤ (i 2).val ∧ (i 2).val < win0_3.index t (2 : Fin 3) * 8192 + 8192
    rw [e2]; omega

/-- So the accumulator array ends holding the second result's entries. -/
theorem final_acc (c : Dev nD) : (dats m 0 c).arrAt 3 cfg0.N = accArr m c :=
  (dats m 0 c).arrAt_eq_of_cover 3 (accArr m c) (fun t hf => flushed_acc m c t hf) (cover_acc)

/-! ## The reshapes after the region -/

/-- The first result: the row array with its unit axis dropped. -/
theorem tail_rows (c : Dev nD) :
    Pipeline.afterTail₀ cfgs (dats m) 0 (V0 m) [hostOps1] c main_v2 = result1 (X m c) (Y m c) := by
  unfold Pipeline.afterTail₀
  simp only [List.flatten_cons, List.flatten_nil, List.append_nil]
  after_results
  have e := (Pipeline.withArrays_arr spec0 launch0.win.arr_inj c (V0 m c) (fun w => (dats m 0 c).arrAt w cfg0.N) 2).trans
    (final_rows m c)
  funext j
  obtain ⟨b, n, rfl⟩ : ∃ (b : Fin 4) (n : Fin 8192), j = ix2 b n := ⟨j 0, j 1, eq_ix2 j⟩
  show shapeCast S4x8192 (Pipeline.withArrays spec0 c (V0 m c) (fun w => (dats m 0 c).arrAt w cfg0.N)
      (Proc.devRef .tc (Pipeline.arrRef spec0 2))) shapeCasts_S4x1x8192_S4x8192 (ix2 b n) = _
  rw [e]
  exact shapeCast_a1b_ab_apply (rowsArr m c) _ b n

/-- The second result: the accumulator array with its unit axis dropped. -/
theorem tail_acc (c : Dev nD) :
    Pipeline.afterTail₀ cfgs (dats m) 0 (V0 m) [hostOps1] c main_v3 = result2 (X m c) (Y m c) := by
  unfold Pipeline.afterTail₀
  simp only [List.flatten_cons, List.flatten_nil, List.append_nil]
  after_results
  have e := (Pipeline.withArrays_arr spec0 launch0.win.arr_inj c (V0 m c) (fun w => (dats m 0 c).arrAt w cfg0.N) 3).trans
    (final_acc m c)
  funext j
  obtain ⟨b, n, rfl⟩ : ∃ (b : Fin 4) (n : Fin 8192), j = ix2 b n := ⟨j 0, j 1, eq_ix2 j⟩
  show shapeCast S4x8192 (Pipeline.withArrays spec0 c (V0 m c) (fun w => (dats m 0 c).arrAt w cfg0.N)
      (Proc.devRef .tc (Pipeline.arrRef spec0 3))) shapeCasts_S4x1x8192_S4x8192 (ix2 b n) = _
  rw [e]
  exact shapeCast_a1b_ab_apply (accArr m c) _ b n

/-! ## The run, read -/

/-- From any memory with zero counters every weakly fair execution of the idealized kernel's program terminates with its
    two results at the nearest-neighbour minima of the argument arrays, the arguments unchanged. -/
theorem run : θ_run defs (onTc (τ := τ) (main (F := Ideal))) ⟨m, fun _ => 0, ρ⟩ fun r => ∀ c : Dev nD,
      r.2.mem ((c.tc : Thread nD τ).loc main_v2) = result1 (X m c) (Y m c)
      ∧ r.2.mem ((c.tc : Thread nD τ).loc main_v3) = result2 (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_rows m c),
      ((h c).2 main_v3 (Pipeline.mem_restRefs_of main_v3 (by decide) (by decide))).trans (tail_acc m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.lean ====
/-
  Nearest-neighbour squared distances between two clouds of 8192 points in three coordinates, in four batches.

  For points p of the first cloud and q of the second the squared distance is written |p|² + |q|² − 2·(p·q). The kernel
  computes it tile by tile — 1024 points of the first cloud against four slabs of 2048 points of the second, the inner
  product as three products added one after the other — keeps for each row the running minimum over the slabs, and keeps
  for each column a minimum accumulated over a batch's eight tiles, started from +∞ at the first. The reference forms the
  whole 8192 × 8192 matrix with one contraction over the three coordinates and takes its minimum along each axis.

  Over the extended reals the two agree entry by entry: a sum over three coordinates is the three terms added in order, and
  a minimum is determined by its lower bounds, so the grouping into slabs and tiles does not matter. No law that needs
  finiteness is used. The kernel's run is read off its generated frame, the reference's off its generated run; the
  idealization rewrote nothing, so the kernel and its idealization are the same text.
-/
import proofs.«107273_j78314433675722_2_alg».proof.Defs
import proofs.«107273_j78314433675722_2_alg».proof.Proof.Gen.Kernel
import proofs.«107273_j78314433675722_2_alg».proof.Proof.Gen.Kernel.Skeleton
import proofs.«107273_j78314433675722_2_alg».proof.Proof.Gen.Kernel.Launch
import proofs.«107273_j78314433675722_2_alg».proof.Proof.Gen.Kernel.Points
import proofs.«107273_j78314433675722_2_alg».proof.Proof.Gen.Kernel.Frame
import proofs.«107273_j78314433675722_2_alg».proof.Proof.Gen.KernelIdeal
import proofs.«107273_j78314433675722_2_alg».proof.Proof.Gen.KernelIdeal.Skeleton
import proofs.«107273_j78314433675722_2_alg».proof.Proof.Gen.KernelIdeal.Launch
import proofs.«107273_j78314433675722_2_alg».proof.Proof.Gen.KernelIdeal.Points
import proofs.«107273_j78314433675722_2_alg».proof.Proof.Gen.KernelIdeal.Frame
import proofs.«107273_j78314433675722_2_alg».proof.Proof.Gen.ReferenceIdeal
import proofs.«107273_j78314433675722_2_alg».proof.Proof.Gen.Pre_finite_inputs
import proofs.«107273_j78314433675722_2_alg».proof.Proof.Gen.ReferenceIdeal.Run
import proofs.«107273_j78314433675722_2_alg».proof.Proof.Gen.ReferenceIdeal.Read
import proofs.«107273_j78314433675722_2_alg».proof.Proof.RefIsSpec
import proofs.«107273_j78314433675722_2_alg».proof.Proof.KernelValue
import Idealize.ShloMosaic.Adequacy
import Idealize.ShloMosaic.Init

noncomputable section

namespace Cert.Proof

open Idealize.ShloMosaic Idealize.ShloMosaic.TcCoe Idealize.SL.Sem Cert.Chamfer

/-- The kernel runs to the end without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- From memories that agree on the two clouds both programs end with the nearest-neighbour minima of the clouds. -/
theorem algebraic : Cert.algebraic_KernelIdeal_ReferenceIdeal := by
  intro m ρ m' ρ' _ hagree
  refine ⟨fun c => result1 (Cert.KernelIdeal.Accum.X m c) (Cert.KernelIdeal.Accum.Y m c),
    fun c => result2 (Cert.KernelIdeal.Accum.X m c) (Cert.KernelIdeal.Accum.Y m c),
    Cert.KernelIdeal.KValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v13_eq, Cert.ReferenceIdeal.RefValue.v13_eq, (hagree c).1, (hagree c).2]
  · rw [(h c).2.1, Cert.ReferenceIdeal.Read.val_main_v14_eq, Cert.ReferenceIdeal.RefValue.v14_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
